-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn {F : FTy → Type} [FloatOps F] (main_arg0 : FVec F S16x64x128x128 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  main_v3
-- ==== Kernel.lean ====
abbrev S16x64x128x128 : Shape := ⟨4, ![16, 64, 128, 128]⟩
abbrev S16x128x9x128x64 : Shape := ⟨5, ![16, 128, 9, 128, 64]⟩
abbrev S1x64x128x128 : Shape := ⟨4, ![1, 64, 128, 128]⟩
abbrev S1x16x9x128x64 : Shape := ⟨5, ![1, 16, 9, 128, 64]⟩
abbrev S130x130x64 : Shape := ⟨3, ![130, 130, 64]⟩
abbrev S64x128x128 : Shape := ⟨3, ![64, 128, 128]⟩
abbrev S64x1x128 : Shape := ⟨3, ![64, 1, 128]⟩
abbrev S64x129x128 : Shape := ⟨3, ![64, 129, 128]⟩
abbrev S64x130x128 : Shape := ⟨3, ![64, 130, 128]⟩
abbrev S64x130x1 : Shape := ⟨3, ![64, 130, 1]⟩
abbrev S64x130x129 : Shape := ⟨3, ![64, 130, 129]⟩
abbrev S64x130x130 : Shape := ⟨3, ![64, 130, 130]⟩
abbrev S18x130x64 : Shape := ⟨3, ![18, 130, 64]⟩
abbrev S16x128x64 : Shape := ⟨3, ![16, 128, 64]⟩
abbrev S1x16x1x128x64 : Shape := ⟨5, ![1, 16, 1, 128, 64]⟩
abbrev S16x128x3x3x128x64 : Shape := ⟨6, ![16, 128, 3, 3, 128, 64]⟩
abbrev S16x128x128x64x3x3 : Shape := ⟨6, ![16, 128, 128, 64, 3, 3]⟩

abbrev nBuf : Space → Nat
  | .hbm => 4
  | .vmem => 5
  | .smem => 0
  | _ => 0

abbrev bufTy : (tb : Table) → Fin (tcTables nBuf tb) → BufTy
  | .hbm, ⟨0, _⟩ => ⟨S16x64x128x128, .f32⟩
  | .hbm, ⟨1, _⟩ => ⟨S16x128x9x128x64, .f32⟩
  | .hbm, ⟨2, _⟩ => ⟨S16x128x3x3x128x64, .f32⟩
  | .hbm, ⟨3, _⟩ => ⟨S16x128x128x64x3x3, .f32⟩
  | .local _ .vmem, ⟨0, _⟩ => ⟨S1x64x128x128, .f32⟩
  | .local _ .vmem, ⟨1, _⟩ => ⟨S1x64x128x128, .f32⟩
  | .local _ .vmem, ⟨2, _⟩ => ⟨S1x16x9x128x64, .f32⟩
  | .local _ .vmem, ⟨3, _⟩ => ⟨S1x16x9x128x64, .f32⟩
  | .local _ .vmem, ⟨4, _⟩ => ⟨S130x130x64, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c16_i32 : BitVec 32 := 16#32
  let v3 : BitVec 32 := Scalar.muli arg1 c16_i32
  v3
def k0_off1 (i : grid0.Coords) : Fin 3 → Nat :=
  let arg1 : BitVec 32 := BitVec.ofNat 32 (i 1).val
  let c16_i32 : BitVec 32 := 16#32
  let v3 : BitVec 32 := Scalar.muli arg1 c16_i32
  let v4 : BitVec 32 := v3
  let v5 : Index := Scalar.indexCast v4
  let c0 : Index := 0#32
  let c0_1 : Index := 0#32
  ![v5.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x9x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  concatenates_S64x1x128_S64x128x128_S64x129x128_d1 : Shape.Concatenates [S64x1x128, S64x128x128] S64x129x128 1
  concatenates_S64x129x128_S64x1x128_S64x130x128_d1 : Shape.Concatenates [S64x129x128, S64x1x128] S64x130x128 1
  concatenates_S64x130x1_S64x130x128_S64x130x129_d2 : Shape.Concatenates [S64x130x1, S64x130x128] S64x130x129 2
  concatenates_S64x130x129_S64x130x1_S64x130x130_d2 : Shape.Concatenates [S64x130x129, S64x130x1] S64x130x130 2
  transposes_S64x130x130_p1_2_0_S130x130x64 : S64x130x130.Transposes [1, 2, 0] S130x130x64
  inb_S130x130x64_S130x130x64_0_0_0 : ∀ a, (![0, 0, 0] : Fin 3 → Nat) a + S130x130x64.size a ≤ S130x130x64.size a
  h_S130x130x64 : 0 < S130x130x64.numel
  shapeCasts_S130x130x64_S130x130x64 : S130x130x64.ShapeCasts S130x130x64
  h_S18x130x64 : 0 < S18x130x64.numel
  slices_S18x130x64_o0_0_0_S16x128x64 : S18x130x64.Slices ![0, 0, 0] S16x128x64
  inb_S1x16x9x128x64_S1x16x1x128x64_0_0_0_0_0 : ∀ a, (![0, 0, 0, 0, 0] : Fin 5 → Nat) a + S1x16x1x128x64.size a ≤ S1x16x9x128x64.size a
  h_S1x16x1x128x64 : 0 < S1x16x1x128x64.numel
  shapeCasts_S1x16x1x128x64_S16x128x64 : S1x16x1x128x64.ShapeCasts S16x128x64
  shapeCasts_S16x128x64_S1x16x1x128x64 : S16x128x64.ShapeCasts S1x16x1x128x64
  slices_S18x130x64_o0_1_0_S16x128x64 : S18x130x64.Slices ![0, 1, 0] S16x128x64
  inb_S1x16x9x128x64_S1x16x1x128x64_0_0_1_0_0 : ∀ a, (![0, 0, 1, 0, 0] : Fin 5 → Nat) a + S1x16x1x128x64.size a ≤ S1x16x9x128x64.size a
  slices_S18x130x64_o0_2_0_S16x128x64 : S18x130x64.Slices ![0, 2, 0] S16x128x64
  inb_S1x16x9x128x64_S1x16x1x128x64_0_0_2_0_0 : ∀ a, (![0, 0, 2, 0, 0] : Fin 5 → Nat) a + S1x16x1x128x64.size a ≤ S1x16x9x128x64.size a
  slices_S18x130x64_o1_0_0_S16x128x64 : S18x130x64.Slices ![1, 0, 0] S16x128x64
  inb_S1x16x9x128x64_S1x16x1x128x64_0_0_3_0_0 : ∀ a, (![0, 0, 3, 0, 0] : Fin 5 → Nat) a + S1x16x1x128x64.size a ≤ S1x16x9x128x64.size a
  slices_S18x130x64_o1_1_0_S16x128x64 : S18x130x64.Slices ![1, 1, 0] S16x128x64
  inb_S1x16x9x128x64_S1x16x1x128x64_0_0_4_0_0 : ∀ a, (![0, 0, 4, 0, 0] : Fin 5 → Nat) a + S1x16x1x128x64.size a ≤ S1x16x9x128x64.size a
  slices_S18x130x64_o1_2_0_S16x128x64 : S18x130x64.Slices ![1, 2, 0] S16x128x64
  inb_S1x16x9x128x64_S1x16x1x128x64_0_0_5_0_0 : ∀ a, (![0, 0, 5, 0, 0] : Fin 5 → Nat) a + S1x16x1x128x64.size a ≤ S1x16x9x128x64.size a
  slices_S18x130x64_o2_0_0_S16x128x64 : S18x130x64.Slices ![2, 0, 0] S16x128x64
  inb_S1x16x9x128x64_S1x16x1x128x64_0_0_6_0_0 : ∀ a, (![0, 0, 6, 0, 0] : Fin 5 → Nat) a + S1x16x1x128x64.size a ≤ S1x16x9x128x64.size a
  slices_S18x130x64_o2_1_0_S16x128x64 : S18x130x64.Slices ![2, 1, 0] S16x128x64
  inb_S1x16x9x128x64_S1x16x1x128x64_0_0_7_0_0 : ∀ a, (![0, 0, 7, 0, 0] : Fin 5 → Nat) a + S1x16x1x128x64.size a ≤ S1x16x9x128x64.size a
  slices_S18x130x64_o2_2_0_S16x128x64 : S18x130x64.Slices ![2, 2, 0] S16x128x64
  inb_S1x16x9x128x64_S1x16x1x128x64_0_0_8_0_0 : ∀ a, (![0, 0, 8, 0, 0] : Fin 5 → Nat) a + S1x16x1x128x64.size a ≤ S1x16x9x128x64.size a
  shapeCasts_S16x128x9x128x64_S16x128x3x3x128x64 : S16x128x9x128x64.ShapeCasts S16x128x3x3x128x64
  transposes_S16x128x3x3x128x64_S16x128x128x64x3x3_0_1_4_5_2_3 : S16x128x3x3x128x64.Transposes [0, 1, 4, 5, 2, 3] S16x128x128x64x3x3
  hrank0 : 0 < grid0.rank
  k0_mult1_dvd : ∀ i : grid0.Coords, 16 ∣ (k0_mult1 i).toNat
  k0_off1_inb : ∀ i : grid0.Coords, ∀ a, (k0_off1 i) a + S18x130x64.size a ≤ S130x130x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S16x64x128x128.size a
  hwx0_0 : ∀ i : grid0.Coords, EltTy.bits .f32 = 32 ∨ (Rect.block (s := S16x64x128x128) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x9x128x64.size a ≤ S16x128x9x128x64.size a
  hwx0_1 : ∀ i : grid0.Coords, EltTy.bits .f32 = 32 ∨ (Rect.block (s := S16x128x9x128x64) S1x16x9x128x64.size (cc0_transform_1 i) (hinb0_1 i)).WholeWords (EltTy.packing .f32)

variable [Facts₀]

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x9x128x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S_ : Shape := ⟨0, ![]⟩
abbrev S16x64x130x130 : Shape := ⟨4, ![16, 64, 130, 130]⟩
abbrev S16x64x128x128x1 : Shape := ⟨5, ![16, 64, 128, 128, 1]⟩
abbrev S16x64x128x128x9 : Shape := ⟨5, ![16, 64, 128, 128, 9]⟩
abbrev S16x64x128x128x3x3 : Shape := ⟨6, ![16, 64, 128, 128, 3, 3]⟩
abbrev S16x128x128x64x3x3 : Shape := ⟨6, ![16, 128, 128, 64, 3, 3]⟩

abbrev nBuf : Space → Nat
  | .hbm => 25
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S_, .i32⟩
  | .hbm, ⟨2, _⟩ => ⟨S_, .f32⟩
  | .hbm, ⟨3, _⟩ => ⟨S16x64x130x130, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S16x64x128x128, .f32⟩
  | .hbm, ⟨8, _⟩ => ⟨S16x64x128x128, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S16x64x128x128x1, .f32⟩
  | .hbm, ⟨14, _⟩ => ⟨S16x64x128x128x1, .f32⟩
  | .hbm, ⟨15, _⟩ => ⟨S16x64x128x128x1, .f32⟩
  | .hbm, ⟨16, _⟩ => ⟨S16x64x128x128x1, .f32⟩
  | .hbm, ⟨17, _⟩ => ⟨S16x64x128x128x1, .f32⟩
  | .hbm, ⟨18, _⟩ => ⟨S16x64x128x128x1, .f32⟩
  | .hbm, ⟨19, _⟩ => ⟨S16x64x128x128x1, .f32⟩
  | .hbm, ⟨20, _⟩ => ⟨S16x64x128x128x1, .f32⟩
  | .hbm, ⟨21, _⟩ => ⟨S16x64x128x128x1, .f32⟩
  | .hbm, ⟨22, _⟩ => ⟨S16x64x128x128x9, .f32⟩
  | .hbm, ⟨23, _⟩ => ⟨S16x64x128x128x3x3, .f32⟩
  | .hbm, ⟨24, _⟩ => ⟨S16x128x128x64x3x3, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]

class Facts₀ : Prop where
  pads_S16x64x128x128_S16x64x130x130_000_000_110_110 : S16x64x128x128.Pads (![0, 0, 1, 1] : Fin 4 → Nat) ![0, 0, 1, 1] ![0, 0, 0, 0] S16x64x130x130
  h_S_ : 0 < S_.numel
  slices_S16x64x130x130_S16x64x128x128_0_0_0_0 : S16x64x130x130.Slices ![0, 0, 0, 0] S16x64x128x128
  slices_S16x64x130x130_S16x64x128x128_0_0_0_1 : S16x64x130x130.Slices ![0, 0, 0, 1] S16x64x128x128
  slices_S16x64x130x130_S16x64x128x128_0_0_0_2 : S16x64x130x130.Slices ![0, 0, 0, 2] S16x64x128x128
  slices_S16x64x130x130_S16x64x128x128_0_0_1_0 : S16x64x130x130.Slices ![0, 0, 1, 0] S16x64x128x128
  slices_S16x64x130x130_S16x64x128x128_0_0_1_1 : S16x64x130x130.Slices ![0, 0, 1, 1] S16x64x128x128
  slices_S16x64x130x130_S16x64x128x128_0_0_1_2 : S16x64x130x130.Slices ![0, 0, 1, 2] S16x64x128x128
  slices_S16x64x130x130_S16x64x128x128_0_0_2_0 : S16x64x130x130.Slices ![0, 0, 2, 0] S16x64x128x128
  slices_S16x64x130x130_S16x64x128x128_0_0_2_1 : S16x64x130x130.Slices ![0, 0, 2, 1] S16x64x128x128
  slices_S16x64x130x130_S16x64x128x128_0_0_2_2 : S16x64x130x130.Slices ![0, 0, 2, 2] S16x64x128x128
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x1_S16x64x128x128x1_S16x64x128x128x1_S16x64x128x128x1_S16x64x128x128x1_S16x64x128x128x1_S16x64x128x128x1_S16x64x128x128x9_d4 : Shape.Concatenates [S16x64x128x128x1, S16x64x128x128x1, S16x64x128x128x1, S16x64x128x128x1, S16x64x128x128x1, S16x64x128x128x1, S16x64x128x128x1, S16x64x128x128x1, S16x64x128x128x1] S16x64x128x128x9 4
  shapeCasts_S16x64x128x128x9_S16x64x128x128x3x3 : S16x64x128x128x9.ShapeCasts S16x64x128x128x3x3
  transposes_S16x64x128x128x3x3_S16x128x128x64x3x3_0_2_3_1_4_5 : S16x64x128x128x3x3.Transposes [0, 2, 3, 1, 4, 5] S16x128x128x64x3x3

variable [Facts₀]

class Facts : Prop extends Facts₀ where

variable [Facts]
-- ==== Proof.Spec.lean ====
/-
  The sliding-window patch array, as one function of the image.

  For an image `x[b, c, r, s]` over [16, 64, 128, 128] and a fill value `z`, the image padded by one row and one
  column of `z` on every side is `padded z x b c r s` over rows and columns 0 … 129: `x[b, c, r - 1, s - 1]`
  inside, `z` on the border. The 3 × 3 patch array reads it at every shift,
      patches[b, h, w, c, i, j] = padded[b, c, h + i, w + j],
  and the same entries laid out with the nine shifts as ONE axis `k = 3 i + j` between rows and columns are
      rows9[b, h, k, w, c] = padded[b, c, h + k / 3, w + k % 3].
  Both programs compute `patches`; the kernel goes through `rows9`.
-/
import Idealize.ShloMosaic.Lib.ValueIdxRank6

namespace Cert.Patches

open Idealize.ShloMosaic Idealize.ShloMosaic.ValueIdx

variable {α : Type}

/-- The image with a border of `z` one entry wide: row `r` and column `s` range over 0 … 129, the image sits at
    1 … 128 (rows and columns as naturals; outside 0 … 129 it is `z` too, which nothing reads). -/
def padded (z : α) (x : (⟨4, ![16, 64, 128, 128]⟩ : Shape).Idx → α) (b : Fin 16) (c : Fin 64) (r s : ℕ) : α :=
  if h : (1 ≤ r ∧ r ≤ 128) ∧ (1 ≤ s ∧ s ≤ 128) then
    x (ix4 b c ⟨r - 1, by omega⟩ ⟨s - 1, by omega⟩)
  else z

/-- Inside the border the padded image is the image, one row and one column back. -/
theorem padded_inside (z : α) (x : (⟨4, ![16, 64, 128, 128]⟩ : Shape).Idx → α) (b : Fin 16) (c : Fin 64) (r s : ℕ)
    (hr : 1 ≤ r ∧ r ≤ 128) (hs : 1 ≤ s ∧ s ≤ 128) (k : (⟨4, ![16, 64, 128, 128]⟩ : Shape).Idx)
    (h0 : k 0 = b) (h1 : k 1 = c) (h2 : (k 2).val + 1 = r) (h3 : (k 3).val + 1 = s) :
    padded z x b c r s = x k := by
  unfold padded
  rw [dif_pos ⟨hr, hs⟩]
  congr 1
  funext a
  match a with
  | ⟨0, _⟩ => exact h0.symm
  | ⟨1, _⟩ => exact h1.symm
  | ⟨2, _⟩ => exact Fin.ext (by show r - 1 = (k 2).val; omega)
  | ⟨3, _⟩ => exact Fin.ext (by show s - 1 = (k 3).val; omega)

/-- On the border it is the fill value. -/
theorem padded_border (z : α) (x : (⟨4, ![16, 64, 128, 128]⟩ : Shape).Idx → α) (b : Fin 16) (c : Fin 64) (r s : ℕ)
    (h : ¬((1 ≤ r ∧ r ≤ 128) ∧ (1 ≤ s ∧ s ≤ 128))) : padded z x b c r s = z := by
  unfold padded
  rw [dif_neg h]

/-- The 3 × 3 patches: entry (b, h, w, c, i, j) is the padded image at row h + i, column w + j. -/
def patches (z : α) (x : (⟨4, ![16, 64, 128, 128]⟩ : Shape).Idx → α) :
    (⟨6, ![16, 128, 128, 64, 3, 3]⟩ : Shape).Idx → α :=
  fun j => padded z x (j 0) (j 3) ((j 1).val + (j 4).val) ((j 2).val + (j 5).val)

/-- The same entries with the nine shifts as one axis between rows and columns: entry (b, h, k, w, c) is the padded
    image at row h + k / 3, column w + k % 3. -/
def rows9 (z : α) (x : (⟨4, ![16, 64, 128, 128]⟩ : Shape).Idx → α) :
    (⟨5, ![16, 128, 9, 128, 64]⟩ : Shape).Idx → α :=
  fun j => padded z x (j 0) (j 4) ((j 1).val + (j 2).val / 3) ((j 3).val + (j 2).val % 3)

end Cert.Patches
-- ==== Proof.ScratchFill.lean ====
/-
  What the first row-tile of a batch element stores into the carried scratch.

  The body takes the image block `v[0, c, r, s]` over [1, 64, 128, 128], drops the unit axis, puts one row of the
  fill value before and after the rows and one column before and after the columns (four two-piece concatenations),
  and moves the channel axis last (transpose [1, 2, 0]). Read at (r, s, c) of [130, 130, 64] the result is therefore
  `v[0, c, r - 1, s - 1]` when 1 ≤ r ≤ 128 and 1 ≤ s ≤ 128, and the fill value on the border.
-/
import proofs.«123604_j15968688406880_2_alg».proof.Proof.Gen.KernelIdeal.Skeleton
import Idealize.ShloMosaic.Lib.Pipeline.Value
import Idealize.ShloMosaic.Lib.ValueIdx

noncomputable section

namespace Cert.KernelIdeal.Fill

open Idealize.ShloMosaic Idealize.ShloMosaic.ValueIdx Cert.KernelIdeal Cert.KernelIdeal.Gen

variable {α : Type}

/-- One row of `z` before and one after the 128 rows of `y`: at row `r` of 130 it is `y` at row `r - 1` for
    1 ≤ r ≤ 128, and `z` at rows 0 and 129. -/
theorem rows_bordered (z : α) (y : S64x128x128.Idx → α) (c : Fin 64) (r : Fin 130) (s : Fin 128)
    (h1 : Shape.Concatenates [S64x1x128, S64x128x128] S64x129x128 1)
    (h2 : Shape.Concatenates [S64x129x128, S64x1x128] S64x130x128 1) :
    concatenate S64x130x128 1 [⟨S64x129x128, concatenate S64x129x128 1 [⟨S64x1x128, broadcast S64x1x128 z⟩, ⟨S64x128x128, y⟩] h1⟩,
        ⟨S64x1x128, broadcast S64x1x128 z⟩] h2 (ix3 c r s)
      = if h : 1 ≤ r.val ∧ r.val ≤ 128 then y (ix3 c ⟨r.val - 1, by omega⟩ s) else z := by
  by_cases hr : r.val < 129
  · refine (concatenate_pair_apply_left (t := S64x130x128) (s₁ := S64x129x128) (s₂ := S64x1x128) (1 : Fin 3) _ _ h2 (ix3 c r s) rfl (ix3 c ⟨r.val, hr⟩ s) (fun b => ?_)).trans ?_
    · match b with
      | ⟨0, _⟩ => rfl
      | ⟨1, _⟩ => rfl
      | ⟨2, _⟩ => rfl
    · by_cases h0 : r.val < 1
      · rw [dif_neg (by omega)]
        exact concatenate_pair_apply_left (t := S64x129x128) (s₁ := S64x1x128) (s₂ := S64x128x128) (1 : Fin 3) _ _ h1 (ix3 c ⟨r.val, hr⟩ s) rfl (ix3 c ⟨r.val, h0⟩ s) (fun b => by
          match b with
          | ⟨0, _⟩ => rfl
          | ⟨1, _⟩ => rfl
          | ⟨2, _⟩ => rfl)
      · rw [dif_pos (by omega)]
        exact concatenate_pair_apply_right (t := S64x129x128) (s₁ := S64x1x128) (s₂ := S64x128x128) (1 : Fin 3) _ _ h1 (ix3 c ⟨r.val, hr⟩ s) rfl rfl (ix3 c ⟨r.val - 1, by omega⟩ s)
          (fun b hb => by
            match b with
            | ⟨0, _⟩ => rfl
            | ⟨1, _⟩ => exact absurd rfl hb
            | ⟨2, _⟩ => rfl)
          (by show r.val - 1 + 1 = r.val; omega)
  · rw [dif_neg (by omega)]
    exact concatenate_pair_apply_right (t := S64x130x128) (s₁ := S64x129x128) (s₂ := S64x1x128) (1 : Fin 3) _ _ h2 (ix3 c r s) rfl rfl (ix3 c ⟨0, by decide⟩ s)
      (fun b hb => by
        match b with
        | ⟨0, _⟩ => rfl
        | ⟨1, _⟩ => exact absurd rfl hb
        | ⟨2, _⟩ => rfl)
      (by show 0 + 129 = r.val; have := r.isLt; omega)

/-- One column of `z` before and one after the 128 columns of `y`: at column `s` of 130 it is `y` at column
    `s - 1` for 1 ≤ s ≤ 128, and `z` at columns 0 and 129. -/
theorem cols_bordered (z : α) (y : S64x130x128.Idx → α) (c : Fin 64) (r : Fin 130) (s : Fin 130)
    (h1 : Shape.Concatenates [S64x130x1, S64x130x128] S64x130x129 2)
    (h2 : Shape.Concatenates [S64x130x129, S64x130x1] S64x130x130 2) :
    concatenate S64x130x130 2 [⟨S64x130x129, concatenate S64x130x129 2 [⟨S64x130x1, broadcast S64x130x1 z⟩, ⟨S64x130x128, y⟩] h1⟩,
        ⟨S64x130x1, broadcast S64x130x1 z⟩] h2 (ix3 c r s)
      = if h : 1 ≤ s.val ∧ s.val ≤ 128 then y (ix3 c r ⟨s.val - 1, by omega⟩) else z := by
  by_cases hs : s.val < 129
  · refine (concatenate_pair_apply_left (t := S64x130x130) (s₁ := S64x130x129) (s₂ := S64x130x1) (2 : Fin 3) _ _ h2 (ix3 c r s) rfl (ix3 c r ⟨s.val, hs⟩) (fun b => ?_)).trans ?_
    · match b with
      | ⟨0, _⟩ => rfl
      | ⟨1, _⟩ => rfl
      | ⟨2, _⟩ => rfl
    · by_cases h0 : s.val < 1
      · rw [dif_neg (by omega)]
        exact concatenate_pair_apply_left (t := S64x130x129) (s₁ := S64x130x1) (s₂ := S64x130x128) (2 : Fin 3) _ _ h1 (ix3 c r ⟨s.val, hs⟩) rfl (ix3 c r ⟨s.val, h0⟩) (fun b => by
          match b with
          | ⟨0, _⟩ => rfl
          | ⟨1, _⟩ => rfl
          | ⟨2, _⟩ => rfl)
      · rw [dif_pos (by omega)]
        exact concatenate_pair_apply_right (t := S64x130x129) (s₁ := S64x130x1) (s₂ := S64x130x128) (2 : Fin 3) _ _ h1 (ix3 c r ⟨s.val, hs⟩) rfl rfl (ix3 c r ⟨s.val - 1, by omega⟩)
          (fun b hb => by
            match b with
            | ⟨0, _⟩ => rfl
            | ⟨1, _⟩ => rfl
            | ⟨2, _⟩ => exact absurd rfl hb)
          (by show s.val - 1 + 1 = s.val; omega)
  · rw [dif_neg (by omega)]
    exact concatenate_pair_apply_right (t := S64x130x130) (s₁ := S64x130x129) (s₂ := S64x130x1) (2 : Fin 3) _ _ h2 (ix3 c r s) rfl rfl (ix3 c r ⟨0, by decide⟩)
      (fun b hb => by
        match b with
        | ⟨0, _⟩ => rfl
        | ⟨1, _⟩ => rfl
        | ⟨2, _⟩ => exact absurd rfl hb)
      (by show 0 + 129 = s.val; have := s.isLt; omega)

variable {F : FTy → Type} [FloatOps F]

/-- The bordered, channel-last image the body stores into the scratch, read at row `r`, column `s`, channel `c`:
    the image block one row and one column back inside the border, the converted integer zero on it. -/
theorem fill_apply (v : Vec F S1x64x128x128 .f32) (r s : Fin 130) (c : Fin 64) :
    k0_pay6 v (ix3 r s c)
      = if h : (1 ≤ r.val ∧ r.val ≤ 128) ∧ (1 ≤ s.val ∧ s.val ≤ 128) then
          v (ix4 (0 : Fin 1) c ⟨r.val - 1, by omega⟩ ⟨s.val - 1, by omega⟩)
        else Scalar.sitofp .f32 0#32 := by
  unfold k0_pay6
  dsimp only
  rw [shapeCast_self]
  refine (transpose_apply [1, 2, 0] _ _ (ix3 r s c) (ix3 c r s) (fun b => ?_)).trans ?_
  · match b with
    | ⟨0, _⟩ => rfl
    | ⟨1, _⟩ => rfl
    | ⟨2, _⟩ => rfl
  rw [cols_bordered]
  by_cases hs : 1 ≤ s.val ∧ s.val ≤ 128
  · rw [dif_pos hs, rows_bordered]
    by_cases hr : 1 ≤ r.val ∧ r.val ≤ 128
    · rw [dif_pos hr, dif_pos ⟨hr, hs⟩]
      refine shapeCast_apply _ _ _ _ ?_
      rw [Shape.rowMajor_val_four, Shape.rowMajor_val_three]
      show ((0 * 64 + c.val) * 128 + (r.val - 1)) * 128 + (s.val - 1) = (c.val * 128 + (r.val - 1)) * 128 + (s.val - 1)
      omega
    · rw [dif_neg hr, dif_neg (fun h => hr h.1)]
  · rw [dif_neg hs, dif_neg (fun h => hs h.2)]

end Cert.KernelIdeal.Fill
-- ==== Proof.ShiftStores.lean ====
/-
  What one row-tile writes into its output block, as a function of the scratch.

  The body loads 18 rows of the scratch starting at row `o` (16 rows plus the two halo rows), and for each of the
  nine shifts (i, j), i, j ∈ {0, 1, 2}, stores rows i … i + 15 and columns j … j + 127 of them at position
  k = 3 i + j of the block's shift axis. So the block [1, 16, 9, 128, 64] read at (0, h, k, w, c) is the scratch at
  row o + h + k / 3, column w + k % 3, channel c.
-/
import proofs.«123604_j15968688406880_2_alg».proof.Proof.Gen.KernelIdeal.Skeleton
import Idealize.ShloMosaic.Lib.Pipeline.Value
import Idealize.ShloMosaic.Lib.ValueIdx

noncomputable section

namespace Cert.KernelIdeal.Shifts

open Idealize.ShloMosaic Idealize.ShloMosaic.ValueIdx Cert.KernelIdeal Cert.KernelIdeal.Gen

variable {α : Type}

/-- The block of shifted windows of the scratch `S` whose first row is `o`: entry (0, h, k, w, c) is
    `S[o + h + k / 3, w + k % 3, c]`. -/
def shifted (S : S130x130x64.Idx → α) (o : ℕ) (ho : o + 18 ≤ 130) : S1x16x9x128x64.Idx → α :=
  fun y => S (ix3
    ⟨o + (y 1).val + (y 2).val / 3, by
      have h1 : (y 1).val < 16 := (y 1).isLt
      have h2 : (y 2).val < 9 := (y 2).isLt
      omega⟩
    ⟨(y 3).val + (y 2).val % 3, by
      have h3 : (y 3).val < 128 := (y 3).isLt
      omega⟩
    (y 4))

/-- One shift's store: the slice at offsets (i, j, 0) of the 18 loaded rows, given its unit axes back, read at an
    index of its rectangle of the block — the rectangle at position k = 3 i + j of the shift axis — is the shifted
    block there. -/
theorem piece_eq {Val : EltTy → Type} {e : EltTy} (S : S130x130x64.Idx → Val e) (off : Fin 3 → ℕ)
    (inb : ∀ a, off a + S18x130x64.size a ≤ S130x130x64.size a) (ho : off 0 + 18 ≤ 130)
    (h1 : off 1 = 0) (h2 : off 2 = 0) (k i j : ℕ) (hk : k = 3 * i + j) (hi : i ≤ 2) (hj : j ≤ 2)
    (inbk : ∀ a, (![0, 0, k, 0, 0] : Fin 5 → ℕ) a + (![1, 16, 1, 128, 64] : Fin 5 → ℕ) a ≤ S1x16x9x128x64.size a)
    (hsl : S18x130x64.Slices ![i, j, 0] S16x128x64) (hsc : S16x128x64.ShapeCasts S1x16x1x128x64)
    (x : S1x16x1x128x64.Idx) :
    shapeCast S1x16x1x128x64 (extractStridedSlice (s := S18x130x64) S16x128x64 ![i, j, 0]
        (View.ld S (Rect.unit off S18x130x64.size inb) : S18x130x64.Idx → Val e) hsl) hsc x
      = shifted S (off 0) ho ((Rect.unit (s := S1x16x9x128x64) ![0, 0, k, 0, 0] ![1, 16, 1, 128, 64] inbk).emb x) := by
  have x0 : (x 0).val < 1 := (x 0).isLt
  have x1 : (x 1).val < 16 := (x 1).isLt
  have x2 : (x 2).val < 1 := (x 2).isLt
  have x3 : (x 3).val < 128 := (x 3).isLt
  have x4 : (x 4).val < 64 := (x 4).isLt
  refine (shapeCast_apply _ hsc x (ix3 (x 1) (x 3) (x 4)) ?_).trans ?_
  · rw [Shape.rowMajor_val_three, Shape.rowMajor_val_five]
    show ((x 1).val * 128 + (x 3).val) * 64 + (x 4).val
      = ((((x 0).val * 16 + (x 1).val) * 1 + (x 2).val) * 128 + (x 3).val) * 64 + (x 4).val
    omega
  refine (extractStridedSlice_apply ![i, j, 0] _ hsl (ix3 (x 1) (x 3) (x 4))
    (ix3 ⟨i + (x 1).val, by omega⟩ ⟨j + (x 3).val, by omega⟩ (x 4)) (fun a => ?_)).trans ?_
  · match a with
    | ⟨0, _⟩ => rfl
    | ⟨1, _⟩ => rfl
    | ⟨2, _⟩ => show (x 4).val = 0 + (x 4).val; omega
  unfold shifted
  show S _ = S _
  congr 1
  funext a
  apply Fin.ext
  match a with
  | ⟨0, _⟩ =>
    show off 0 + 1 * (i + (x 1).val) = off 0 + (0 + 1 * (x 1).val) + (k + 1 * (x 2).val) / 3
    omega
  | ⟨1, _⟩ =>
    show off 1 + 1 * (j + (x 3).val) = (0 + 1 * (x 3).val) + (k + 1 * (x 2).val) % 3
    omega
  | ⟨2, _⟩ =>
    show off 2 + 1 * (x 4).val = 0 + 1 * (x 4).val
    omega

end Cert.KernelIdeal.Shifts
-- ==== Proof.PointValues.lean ====
/-
  What the carried scratch and the output block hold after each grid point.

  Grid point t = 8 b + q works on batch element b = t / 8 and row tile q = t % 8. At q = 0 the body fills the scratch
  with the bordered, channel-last image of batch element b; at the other tiles it leaves the scratch alone. So after
  EVERY point t the scratch holds the bordered image of batch element t / 8 (induction on t), and the output block
  is the block of shifted windows of that scratch whose first row is 16 q: entry (0, h, k, w, c) is the bordered image
  of batch element b at channel c, row 16 q + h + k / 3, column w + k % 3.
-/
import proofs.«123604_j15968688406880_2_alg».proof.Proof.Gen.KernelIdeal.Frame
import proofs.«123604_j15968688406880_2_alg».proof.Proof.Spec
import proofs.«123604_j15968688406880_2_alg».proof.Proof.ScratchFill
import proofs.«123604_j15968688406880_2_alg».proof.Proof.ShiftStores
import Idealize.ShloMosaic.Lib.Pipeline.Value
import Idealize.ShloMosaic.Lib.Tactic

noncomputable section

namespace Cert.KernelIdeal.Points

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The two cases of the body, read as values -/

/-- What the scratch reads after one store through its whole rectangle: the stored value. -/
theorem read_fill (a4 : Memref sig .tc .vmem S130x130x64 .f32) (w : S130x130x64.Idx → Elt F .f32)
    (inb0 : ∀ a, (![0, 0, 0] : Fin 3 → Nat) a + (![130, 130, 64] : Fin 3 → Nat) a ≤ S130x130x64.size a) :
    a4.view.read (Elt F) (a4.view.writes (Elt F) a4.view.junk
      [(⟨Rect.unit (s := S130x130x64) ![0, 0, 0] ![130, 130, 64] inb0, w⟩ : View.Piece (Elt F) S130x130x64 .f32)]) = w := by
  rw [View.read_writes_eq_canon _ _ _ (fun y => ⟨_, List.mem_singleton_self _, View.mem_set_unit_zero hz3 inb0 y⟩),
    View.canon_unit_zero hz3]

/-- First row tile of a batch element: the scratch is filled with the bordered image of the input block. -/
theorem scratch_first (c : Dev nD) (i : grid0.Coords) (a2 : Memref sig .tc .vmem S1x64x128x128 .f32) (h2 : a2.IsWhole)
    (a3 : Memref sig .tc .vmem S1x16x9x128x64 .f32) (h3 : a3.IsWhole) (a4 : Memref sig .tc .vmem S130x130x64 .f32)
    (h4 : a4.IsWhole) (hc : cond0_0 i) (x : Vec F S1x64x128x128 .f32) :
    sout0_A_0 c i a2 h2 a3 h3 a4 h4 hc x = k0_pay6 x := by
  unfold sout0_A_0
  rw [View.read_writes_eq_canon _ _ _ (scover0_A_0 c i a2 h2 a3 h3 a4 h4 hc x)]
  unfold kernelRun0_A
  dsimp only
  sl_unfold_words
  rw [View.canon_unit_zero hz3]
  simp only [View.readAt_eq_ld, h2.read_unread, View.ld_unit_zero (S := S1x64x128x128) hz4]

/-- The first row of the 18 the body loads is inside the scratch with 18 rows to spare. -/
theorem off_le (i : grid0.Coords) : k0_off1 i 0 + 18 ≤ 130 := k0_off1_inb i 0

/-- A later row tile: the output block is the block of shifted windows of the scratch as the point found it. -/
theorem block_later (c : Dev nD) (i : grid0.Coords) (a2 : Memref sig .tc .vmem S1x64x128x128 .f32) (h2 : a2.IsWhole)
    (a3 : Memref sig .tc .vmem S1x16x9x128x64 .f32) (h3 : a3.IsWhole) (a4 : Memref sig .tc .vmem S130x130x64 .f32)
    (h4 : a4.IsWhole) (hc : ¬cond0_0 i) (x : Vec F S1x64x128x128 .f32) (xs : Vec F S130x130x64 .f32) :
    out0_B_1 c i a2 h2 a3 h3 a4 h4 hc x xs = Shifts.shifted xs (k0_off1 i 0) (off_le i) := by
  funext y
  have hy := cover0_B_1 c i a2 h2 a3 h3 a4 h4 hc x xs y
  unfold out0_B_1
  rw [View.read_writes_eq_canon _ _ _ (cover0_B_1 c i a2 h2 a3 h3 a4 h4 hc x xs)]
  revert hy
  unfold kernelRun0_B
  dsimp only
  sl_unfold_words
  intro hy
  refine View.canon_apply_of_pieces (Shifts.shifted xs (k0_off1 i 0) (off_le i)) _ ?_ y hy
  intro p hp x'
  simp only [List.mem_cons, List.mem_nil_iff, or_false] at hp
  rcases hp with rfl | rfl | rfl | rfl | rfl | rfl | rfl | rfl | rfl
  all_goals simp only [View.readAt_eq_ld, h4.read_unread]
  · exact Shifts.piece_eq (Val := Elt F) (e := .f32) xs (k0_off1 i) (k0_off1_inb i) (off_le i) rfl rfl 8 2 2 rfl (by decide) (by decide)
      Facts₀.inb_S1x16x9x128x64_S1x16x1x128x64_0_0_8_0_0 Facts₀.slices_S18x130x64_o2_2_0_S16x128x64 Facts₀.shapeCasts_S16x128x64_S1x16x1x128x64 x'
  · exact Shifts.piece_eq (Val := Elt F) (e := .f32) xs (k0_off1 i) (k0_off1_inb i) (off_le i) rfl rfl 7 2 1 rfl (by decide) (by decide)
      Facts₀.inb_S1x16x9x128x64_S1x16x1x128x64_0_0_7_0_0 Facts₀.slices_S18x130x64_o2_1_0_S16x128x64 Facts₀.shapeCasts_S16x128x64_S1x16x1x128x64 x'
  · exact Shifts.piece_eq (Val := Elt F) (e := .f32) xs (k0_off1 i) (k0_off1_inb i) (off_le i) rfl rfl 6 2 0 rfl (by decide) (by decide)
      Facts₀.inb_S1x16x9x128x64_S1x16x1x128x64_0_0_6_0_0 Facts₀.slices_S18x130x64_o2_0_0_S16x128x64 Facts₀.shapeCasts_S16x128x64_S1x16x1x128x64 x'
  · exact Shifts.piece_eq (Val := Elt F) (e := .f32) xs (k0_off1 i) (k0_off1_inb i) (off_le i) rfl rfl 5 1 2 rfl (by decide) (by decide)
      Facts₀.inb_S1x16x9x128x64_S1x16x1x128x64_0_0_5_0_0 Facts₀.slices_S18x130x64_o1_2_0_S16x128x64 Facts₀.shapeCasts_S16x128x64_S1x16x1x128x64 x'
  · exact Shifts.piece_eq (Val := Elt F) (e := .f32) xs (k0_off1 i) (k0_off1_inb i) (off_le i) rfl rfl 4 1 1 rfl (by decide) (by decide)
      Facts₀.inb_S1x16x9x128x64_S1x16x1x128x64_0_0_4_0_0 Facts₀.slices_S18x130x64_o1_1_0_S16x128x64 Facts₀.shapeCasts_S16x128x64_S1x16x1x128x64 x'
  · exact Shifts.piece_eq (Val := Elt F) (e := .f32) xs (k0_off1 i) (k0_off1_inb i) (off_le i) rfl rfl 3 1 0 rfl (by decide) (by decide)
      Facts₀.inb_S1x16x9x128x64_S1x16x1x128x64_0_0_3_0_0 Facts₀.slices_S18x130x64_o1_0_0_S16x128x64 Facts₀.shapeCasts_S16x128x64_S1x16x1x128x64 x'
  · exact Shifts.piece_eq (Val := Elt F) (e := .f32) xs (k0_off1 i) (k0_off1_inb i) (off_le i) rfl rfl 2 0 2 rfl (by decide) (by decide)
      Facts₀.inb_S1x16x9x128x64_S1x16x1x128x64_0_0_2_0_0 Facts₀.slices_S18x130x64_o0_2_0_S16x128x64 Facts₀.shapeCasts_S16x128x64_S1x16x1x128x64 x'
  · exact Shifts.piece_eq (Val := Elt F) (e := .f32) xs (k0_off1 i) (k0_off1_inb i) (off_le i) rfl rfl 1 0 1 rfl (by decide) (by decide)
      Facts₀.inb_S1x16x9x128x64_S1x16x1x128x64_0_0_1_0_0 Facts₀.slices_S18x130x64_o0_1_0_S16x128x64 Facts₀.shapeCasts_S16x128x64_S1x16x1x128x64 x'
  · exact Shifts.piece_eq (Val := Elt F) (e := .f32) xs (k0_off1 i) (k0_off1_inb i) (off_le i) rfl rfl 0 0 0 rfl (by decide) (by decide)
      Facts₀.inb_S1x16x9x128x64_S1x16x1x128x64_0_0_0_0_0 Facts₀.slices_S18x130x64_o0_0_0_S16x128x64 Facts₀.shapeCasts_S16x128x64_S1x16x1x128x64 x'

/-- The first row tile: the same, of the scratch as the point itself has just filled it. -/
theorem block_first (c : Dev nD) (i : grid0.Coords) (a2 : Memref sig .tc .vmem S1x64x128x128 .f32) (h2 : a2.IsWhole)
    (a3 : Memref sig .tc .vmem S1x16x9x128x64 .f32) (h3 : a3.IsWhole) (a4 : Memref sig .tc .vmem S130x130x64 .f32)
    (h4 : a4.IsWhole) (hc : cond0_0 i) (x : Vec F S1x64x128x128 .f32) :
    out0_A_1 c i a2 h2 a3 h3 a4 h4 hc x = Shifts.shifted (k0_pay6 x) (k0_off1 i 0) (off_le i) := by
  funext y
  have hy := cover0_A_1 c i a2 h2 a3 h3 a4 h4 hc x y
  unfold out0_A_1
  rw [View.read_writes_eq_canon _ _ _ (cover0_A_1 c i a2 h2 a3 h3 a4 h4 hc x)]
  revert hy
  unfold kernelRun0_A
  dsimp only
  sl_unfold_words
  intro hy
  refine View.canon_apply_of_pieces (Shifts.shifted (k0_pay6 x) (k0_off1 i 0) (off_le i)) _ ?_ y hy
  intro p hp x'
  simp only [List.mem_cons, List.mem_nil_iff, or_false] at hp
  rcases hp with rfl | rfl | rfl | rfl | rfl | rfl | rfl | rfl | rfl
  all_goals simp only [View.readAt_eq_ld, read_fill, h2.read_unread, View.ld_unit_zero (S := S1x64x128x128) hz4]
  · exact Shifts.piece_eq (Val := Elt F) (e := .f32) (k0_pay6 x) (k0_off1 i) (k0_off1_inb i) (off_le i) rfl rfl 8 2 2 rfl (by decide) (by decide)
      Facts₀.inb_S1x16x9x128x64_S1x16x1x128x64_0_0_8_0_0 Facts₀.slices_S18x130x64_o2_2_0_S16x128x64 Facts₀.shapeCasts_S16x128x64_S1x16x1x128x64 x'
  · exact Shifts.piece_eq (Val := Elt F) (e := .f32) (k0_pay6 x) (k0_off1 i) (k0_off1_inb i) (off_le i) rfl rfl 7 2 1 rfl (by decide) (by decide)
      Facts₀.inb_S1x16x9x128x64_S1x16x1x128x64_0_0_7_0_0 Facts₀.slices_S18x130x64_o2_1_0_S16x128x64 Facts₀.shapeCasts_S16x128x64_S1x16x1x128x64 x'
  · exact Shifts.piece_eq (Val := Elt F) (e := .f32) (k0_pay6 x) (k0_off1 i) (k0_off1_inb i) (off_le i) rfl rfl 6 2 0 rfl (by decide) (by decide)
      Facts₀.inb_S1x16x9x128x64_S1x16x1x128x64_0_0_6_0_0 Facts₀.slices_S18x130x64_o2_0_0_S16x128x64 Facts₀.shapeCasts_S16x128x64_S1x16x1x128x64 x'
  · exact Shifts.piece_eq (Val := Elt F) (e := .f32) (k0_pay6 x) (k0_off1 i) (k0_off1_inb i) (off_le i) rfl rfl 5 1 2 rfl (by decide) (by decide)
      Facts₀.inb_S1x16x9x128x64_S1x16x1x128x64_0_0_5_0_0 Facts₀.slices_S18x130x64_o1_2_0_S16x128x64 Facts₀.shapeCasts_S16x128x64_S1x16x1x128x64 x'
  · exact Shifts.piece_eq (Val := Elt F) (e := .f32) (k0_pay6 x) (k0_off1 i) (k0_off1_inb i) (off_le i) rfl rfl 4 1 1 rfl (by decide) (by decide)
      Facts₀.inb_S1x16x9x128x64_S1x16x1x128x64_0_0_4_0_0 Facts₀.slices_S18x130x64_o1_1_0_S16x128x64 Facts₀.shapeCasts_S16x128x64_S1x16x1x128x64 x'
  · exact Shifts.piece_eq (Val := Elt F) (e := .f32) (k0_pay6 x) (k0_off1 i) (k0_off1_inb i) (off_le i) rfl rfl 3 1 0 rfl (by decide) (by decide)
      Facts₀.inb_S1x16x9x128x64_S1x16x1x128x64_0_0_3_0_0 Facts₀.slices_S18x130x64_o1_0_0_S16x128x64 Facts₀.shapeCasts_S16x128x64_S1x16x1x128x64 x'
  · exact Shifts.piece_eq (Val := Elt F) (e := .f32) (k0_pay6 x) (k0_off1 i) (k0_off1_inb i) (off_le i) rfl rfl 2 0 2 rfl (by decide) (by decide)
      Facts₀.inb_S1x16x9x128x64_S1x16x1x128x64_0_0_2_0_0 Facts₀.slices_S18x130x64_o0_2_0_S16x128x64 Facts₀.shapeCasts_S16x128x64_S1x16x1x128x64 x'
  · exact Shifts.piece_eq (Val := Elt F) (e := .f32) (k0_pay6 x) (k0_off1 i) (k0_off1_inb i) (off_le i) rfl rfl 1 0 1 rfl (by decide) (by decide)
      Facts₀.inb_S1x16x9x128x64_S1x16x1x128x64_0_0_1_0_0 Facts₀.slices_S18x130x64_o0_1_0_S16x128x64 Facts₀.shapeCasts_S16x128x64_S1x16x1x128x64 x'
  · exact Shifts.piece_eq (Val := Elt F) (e := .f32) (k0_pay6 x) (k0_off1 i) (k0_off1_inb i) (off_le i) rfl rfl 0 0 0 rfl (by decide) (by decide)
      Facts₀.inb_S1x16x9x128x64_S1x16x1x128x64_0_0_0_0_0 Facts₀.slices_S18x130x64_o0_0_0_S16x128x64 Facts₀.shapeCasts_S16x128x64_S1x16x1x128x64 x'

/-! ## The grid, decided once -/

/-- Point t = 8 b + q: both windows sit at batch element b = t / 8, the output window at row tile q = t % 8, and the
    18 scratch rows the body loads start at row 16 q. -/
theorem grid_facts : ∀ t : Fin cfg0.N,
    win0_0.index t (0 : Fin 4) = t.val / 8 ∧ win0_0.index t (1 : Fin 4) = 0 ∧ win0_0.index t (2 : Fin 4) = 0
    ∧ win0_0.index t (3 : Fin 4) = 0
    ∧ win0_1.index t (0 : Fin 5) = t.val / 8 ∧ win0_1.index t (1 : Fin 5) = t.val % 8 ∧ win0_1.index t (2 : Fin 5) = 0
    ∧ win0_1.index t (3 : Fin 5) = 0 ∧ win0_1.index t (4 : Fin 5) = 0
    ∧ k0_off1 (grid0.coords t) 0 = 16 * (t.val % 8) :=
  (by decide +kernel : ∀ t : Fin grid0.N, _)

theorem batch_lt (t : Fin cfg0.N) : t.val / 8 < 16 := by
  have hN : cfg0.N = 128 := N_0
  have := t.isLt
  omega

/-! ## The scratch after every point -/

/-- The image as the pallas_call finds it. -/
abbrev img (c : Dev nD) : S16x64x128x128.Idx → Elt F .f32 := V m c main_arg0

/-- The bordered, channel-last image of batch element `b`: what the scratch holds while `b`'s row tiles run. -/
def bordered (c : Dev nD) (b : Fin 16) : S130x130x64.Idx → Elt F .f32 :=
  fun y => Patches.padded (Scalar.sitofp .f32 0#32 : F .f32) (img m c) b (y 2) (y 0).val (y 1).val

/-- The fill of the input block at point t is the bordered image of batch element t / 8: the block's entry
    (0, c, r, s) is the image's (t / 8, c, r, s). -/
theorem fill_iblk (c : Dev nD) (t : Fin cfg0.N) :
    k0_pay6 (iblk m c 0 t) = bordered m c ⟨t.val / 8, batch_lt t⟩ := by
  obtain ⟨e0, e1, e2, e3, -⟩ := grid_facts t
  funext y
  obtain ⟨r, s, ch, rfl⟩ : ∃ (r s : Fin 130) (ch : Fin 64), y = ix3 r s ch := ⟨y 0, y 1, y 2, eq_ix3 y⟩
  refine (Fill.fill_apply (iblk m c 0 t) r s ch).trans ?_
  unfold bordered
  show _ = Patches.padded _ _ _ ch r.val s.val
  by_cases h : (1 ≤ r.val ∧ r.val ≤ 128) ∧ (1 ≤ s.val ∧ s.val ≤ 128)
  · rw [dif_pos h]
    unfold iblk
    rw [View.read_apply]
    show V m c main_arg0 _ = _
    refine (Patches.padded_inside _ _ _ _ _ _ h.1 h.2 _ ?_ ?_ ?_ ?_).symm
    · apply Fin.ext
      show win0_0.index t (0 : Fin 4) * 1 + 1 * 0 = t.val / 8
      omega
    · apply Fin.ext
      show win0_0.index t (1 : Fin 4) * 64 + 1 * ch.val = ch.val
      omega
    · show win0_0.index t (2 : Fin 4) * 128 + 1 * (r.val - 1) + 1 = r.val
      omega
    · show win0_0.index t (3 : Fin 4) * 128 + 1 * (s.val - 1) + 1 = s.val
      omega
  · rw [dif_neg h, Patches.padded_border _ _ _ _ _ _ h]

/-- The bordered image depends on the batch element's number only. -/
theorem bordered_congr (c : Dev nD) {b b' : Fin 16} (h : b.val = b'.val) : bordered m c b = bordered m c b' := by
  rw [Fin.ext h]

/-- After a first row tile the scratch holds the bordered image of its batch element. -/
theorem scratch_first_at (c : Dev nD) (t : Fin cfg0.N) (h0 : t.val % 8 = 0) :
    (outsAt0 m c t.val t.isLt).2 = bordered m c ⟨t.val / 8, batch_lt t⟩ := by
  have e := congrArg Prod.snd (outsAt0_A m c t h0)
  dsimp only at e
  rw [e, scratch_first]
  exact fill_iblk m c t

/-- After EVERY point the scratch holds the bordered image of the point's batch element: filled at the first row
    tile, left alone at the seven that follow (induction on the point). -/
theorem scratch_eq (c : Dev nD) : ∀ (n : ℕ) (h : n < cfg0.N),
    (outsAt0 m c n h).2 = bordered m c ⟨n / 8, batch_lt ⟨n, h⟩⟩
  | 0, h => scratch_first_at m c ⟨0, h⟩ rfl
  | n + 1, h => by
    by_cases h0 : (n + 1) % 8 = 0
    · exact scratch_first_at m c ⟨n + 1, h⟩ h0
    · have e := congrArg Prod.snd (outsAt0_B m c ⟨n + 1, h⟩ h0)
      dsimp only at e
      unfold sout0_B_0 at e
      rw [e]
      show (outsAt0 m c n _).2 = _
      rw [scratch_eq c n]
      exact bordered_congr m c (by show n / 8 = (n + 1) / 8; omega)

/-! ## The output block after every point -/

/-- After every point the output block is the block of shifted windows, first row 16 (t % 8), of the bordered image of
    batch element t / 8. -/
theorem block_eq (c : Dev nD) (t : Fin cfg0.N) :
    (outsAt0 m c t.val t.isLt).1
      = Shifts.shifted (bordered m c ⟨t.val / 8, batch_lt t⟩) (k0_off1 (grid0.coords t) 0) (off_le _) := by
  by_cases h0 : t.val % 8 = 0
  · have e := congrArg Prod.fst (outsAt0_A m c t h0)
    dsimp only at e
    rw [e, block_first, fill_iblk m c t]
  · have e := congrArg Prod.fst (outsAt0_B m c t h0)
    dsimp only at e
    rw [e, block_later, scratch_eq m c (t.val - 1),
      bordered_congr m c (b' := ⟨t.val / 8, batch_lt t⟩) (by show (t.val - 1) / 8 = t.val / 8; omega)]

end Cert.KernelIdeal.Points
-- ==== Proof.TailRead.lean ====
/-
  The kernel's two closing host operations, read at an index.

  The kernel leaves the patches with the nine shifts as ONE axis between rows and columns, `rows9[b, h, n, w, c]`
  over [16, 128, 9, 128, 64]. The host then splits that axis of 9 into 3 × 3 and moves the two shift axes to the end.
  Read at an index (b, h, w, c, i, k) of the result, each step names ONE index of its operand:

    transpose   (b, h, w, c, i, k)  ↦  (b, h, i, k, w, c)
    reshape     (b, h, i, k, w, c)  ↦  (b, h, 3 i + k, w, c)          the same row-major position

  and `rows9` at (b, h, 3 i + k, w, c) is the padded image at row h + (3 i + k) / 3 = h + i and column
  w + (3 i + k) % 3 = w + k, because k < 3: the 3 × 3 patch array `patches`.
-/
import proofs.«123604_j15968688406880_2_alg».proof.KernelIdeal
import proofs.«123604_j15968688406880_2_alg».proof.Proof.Spec
import Idealize.ShloMosaic.Lib.Pipeline.Value
import Idealize.ShloMosaic.Lib.ValueIdxRank6

namespace Cert.KernelIdeal.Tail

open Idealize.ShloMosaic Idealize.ShloMosaic.ValueIdx

variable {α : Type}

/-- Splitting the axis of 9 into 3 × 3: entry (b, h, i, k, w, c) is entry (b, h, 3 i + k, w, c), the same row-major
    position. -/
theorem reshape_apply (y : S16x128x9x128x64.Idx → α) (h1 : S16x128x9x128x64.ShapeCasts S16x128x3x3x128x64)
    (b : Fin 16) (h : Fin 128) (i k : Fin 3) (w : Fin 128) (c : Fin 64) :
    shapeCast S16x128x3x3x128x64 y h1 (ix6 b h i k w c)
      = y (ix5 b h (⟨3 * i.val + k.val, by have := i.isLt; have := k.isLt; omega⟩ : Fin 9) w c) := by
  refine shapeCast_apply y h1 (ix6 b h i k w c) _ ?_
  rw [Shape.rowMajor_val_five, Shape.rowMajor_val_six]
  show (((b.val * 128 + h.val) * 9 + (3 * i.val + k.val)) * 128 + w.val) * 64 + c.val
    = ((((b.val * 128 + h.val) * 3 + i.val) * 3 + k.val) * 128 + w.val) * 64 + c.val
  omega

/-- Moving the two shift axes to the end: entry (b, h, w, c, i, k) is entry (b, h, i, k, w, c). -/
theorem transpose_apply' (y : S16x128x3x3x128x64.Idx → α)
    (h2 : S16x128x3x3x128x64.Transposes [0, 1, 4, 5, 2, 3] S16x128x128x64x3x3)
    (b : Fin 16) (h w : Fin 128) (c : Fin 64) (i k : Fin 3) :
    transpose S16x128x128x64x3x3 [0, 1, 4, 5, 2, 3] y h2 (ix6 b h w c i k) = y (ix6 b h i k w c) :=
  transpose_apply [0, 1, 4, 5, 2, 3] y h2 (ix6 b h w c i k) (ix6 b h i k w c) (fun a => match a with
    | ⟨0, _⟩ => rfl
    | ⟨1, _⟩ => rfl
    | ⟨2, _⟩ => rfl
    | ⟨3, _⟩ => rfl
    | ⟨4, _⟩ => rfl
    | ⟨5, _⟩ => rfl)

/-- The two closing operations turn the patches with the nine shifts as one axis into the 3 × 3 patch array. -/
theorem tail_eq (z : α) (x : (⟨4, ![16, 64, 128, 128]⟩ : Shape).Idx → α)
    (h1 : S16x128x9x128x64.ShapeCasts S16x128x3x3x128x64)
    (h2 : S16x128x3x3x128x64.Transposes [0, 1, 4, 5, 2, 3] S16x128x128x64x3x3) :
    transpose S16x128x128x64x3x3 [0, 1, 4, 5, 2, 3]
        (shapeCast S16x128x3x3x128x64 (Cert.Patches.rows9 z x) h1) h2
      = Cert.Patches.patches z x := by
  funext j
  obtain ⟨b, h, w, c, i, k, rfl⟩ : ∃ (b : Fin 16) (h w : Fin 128) (c : Fin 64) (i k : Fin 3), j = ix6 b h w c i k :=
    ⟨j 0, j 1, j 2, j 3, j 4, j 5, eq_ix6 j⟩
  rw [transpose_apply', reshape_apply]
  show Cert.Patches.padded z x b c (h.val + (3 * i.val + k.val) / 3) (w.val + (3 * i.val + k.val) % 3)
    = Cert.Patches.padded z x b c (h.val + i.val) (w.val + k.val)
  have hk : k.val < 3 := k.isLt
  rw [show (3 * i.val + k.val) / 3 = i.val by omega, show (3 * i.val + k.val) % 3 = k.val by omega]

end Cert.KernelIdeal.Tail
-- ==== Proof.KernelArray.lean ====
/-
  What the kernel program leaves in its arrays.

  Point t = 8 b + q writes its output block to block (b, q) of the [16, 128, 9, 128, 64] array: rows 16 q … 16 q + 15 of
  batch element b. The block is the block of shifted windows, first row 16 q, of the bordered image of batch element b
  (PointValues), which is block (b, q) of ONE whole-array function of the image, `rows9`: entry (b, h, k, w, c) is the
  bordered image of b at channel c, row h + k / 3, column w + k % 3. The 128 blocks tile the array, so after the run the
  array IS `rows9`. The two host operations that follow — split the shift axis of 9 into 3 × 3, move the shift axes
  last — turn it into the 3 × 3 patch array `patches` (TailRead).
-/
import proofs.«123604_j15968688406880_2_alg».proof.Proof.PointValues
import proofs.«123604_j15968688406880_2_alg».proof.Proof.TailRead
import Idealize.ShloMosaic.Lib.Pipeline.Value
import Idealize.ShloMosaic.Lib.StableHlo.Run

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Points

variable {F : FTy → Type} [FloatOps F]
variable (m : (ℓ : Loc nD τ sig) → Buf (Elt F) ℓ) (ρ : Dev nD → PrngReg)

/-- The fill value of the border: the integer zero converted to a float. -/
abbrev fillv : F .f32 := Scalar.sitofp .f32 0#32

/-- The bordered image read at equal places is equal. -/
theorem padded_congr {α : Type} (z : α) (x : (⟨4, ![16, 64, 128, 128]⟩ : Shape).Idx → α) {b b' : Fin 16} {c c' : Fin 64}
    {r r' s s' : ℕ} (hb : b = b') (hc : c = c') (hr : r = r') (hs : s = s') :
    Patches.padded z x b c r s = Patches.padded z x b' c' r' s' := by
  subst hb hc hr hs; rfl

/-- WHAT POINT t WRITES BACK is block t of `rows9` of the image as the pallas_call finds it. -/
theorem flushed_eq (c : Dev nD) (t : Fin cfg0.N) :
    (dats m 0 c).flushed 1 t = ((cfg0.win 1).blk t).view.read (Elt F) (Patches.rows9 (fillv (F := F)) (img m c)) := by
  show (cfg0.win 1).cut (grid0.coords t) ((dats m 0 c).after 1 t) = _
  rw [after0_1, block_eq m c t]
  obtain ⟨-, -, -, -, e4, e5, e6, e7, e8, e9⟩ := grid_facts t
  funext y
  have y0 : (y 0).val < 1 := (y 0).isLt
  have y1 : (y 1).val < 16 := (y 1).isLt
  have y2 : (y 2).val < 9 := (y 2).isLt
  have y3 : (y 3).val < 128 := (y 3).isLt
  have y4 : (y 4).val < 64 := (y 4).isLt
  rw [View.read_apply]
  unfold Shifts.shifted bordered Patches.rows9
  show Patches.padded _ _ _ (y 4) (k0_off1 (grid0.coords t) 0 + (y 1).val + (y 2).val / 3) ((y 3).val + (y 2).val % 3)
    = Patches.padded _ _ _ _ _ _
  refine padded_congr _ _ ?_ ?_ ?_ ?_
  · apply Fin.ext
    show t.val / 8 = win0_1.index t (0 : Fin 5) * 1 + 1 * (y 0).val
    omega
  · apply Fin.ext
    show (y 4).val = win0_1.index t (4 : Fin 5) * 64 + 1 * (y 4).val
    omega
  · show k0_off1 (grid0.coords t) 0 + (y 1).val + (y 2).val / 3
      = (win0_1.index t (1 : Fin 5) * 16 + 1 * (y 1).val) + (win0_1.index t (2 : Fin 5) * 9 + 1 * (y 2).val) / 3
    omega
  · show (y 3).val + (y 2).val % 3
      = (win0_1.index t (3 : Fin 5) * 128 + 1 * (y 3).val) + (win0_1.index t (2 : Fin 5) * 9 + 1 * (y 2).val) % 3
    omega

/-- An index of the array is in point t's block iff each coordinate is in the block's range on its axis. -/
theorem mem_blk (t : Fin cfg0.N) (i : S16x128x9x128x64.Idx) :
    i ∈ ((cfg0.win 1).blk t).view.set ↔ ∀ a : Fin 5, win0_1.index t a * S1x16x9x128x64.size a ≤ (i a).val
      ∧ (i a).val < win0_1.index t a * S1x16x9x128x64.size a + S1x16x9x128x64.size a := by
  show i ∈ ((View.whole main_v0).slice (win0_1.rect t)).set ↔ _
  rw [View.set_slice_whole, Rect.mem_set_unit]
  exact Iff.rfl

/-- Every index (b, h, k, w, c) of the array is in the block of point 8 b + h / 16. -/
theorem covered (i : S16x128x9x128x64.Idx) :
    ∃ t : Fin cfg0.N, (cfg0.win 1).flush t = true ∧ i ∈ ((cfg0.win 1).blk t).view.set := by
  have hN : cfg0.N = 128 := N_0
  have i0 : (i 0).val < 16 := (i 0).isLt
  have i1 : (i 1).val < 128 := (i 1).isLt
  have i2 : (i 2).val < 9 := (i 2).isLt
  have i3 : (i 3).val < 128 := (i 3).isLt
  have i4 : (i 4).val < 64 := (i 4).isLt
  have ht : 8 * (i 0).val + (i 1).val / 16 < cfg0.N := by omega
  obtain ⟨-, -, -, -, e4, e5, e6, e7, e8, -⟩ := grid_facts ⟨8 * (i 0).val + (i 1).val / 16, ht⟩
  refine ⟨⟨8 * (i 0).val + (i 1).val / 16, ht⟩, flush0_1 _, ?_⟩
  rw [mem_blk]
  intro a
  match a with
  | ⟨0, _⟩ =>
    show win0_1.index _ (0 : Fin 5) * 1 ≤ (i 0).val ∧ (i 0).val < win0_1.index _ (0 : Fin 5) * 1 + 1
    rw [e4]; show (8 * (i 0).val + (i 1).val / 16) / 8 * 1 ≤ (i 0).val ∧ (i 0).val < (8 * (i 0).val + (i 1).val / 16) / 8 * 1 + 1
    omega
  | ⟨1, _⟩ =>
    show win0_1.index _ (1 : Fin 5) * 16 ≤ (i 1).val ∧ (i 1).val < win0_1.index _ (1 : Fin 5) * 16 + 16
    rw [e5]; show (8 * (i 0).val + (i 1).val / 16) % 8 * 16 ≤ (i 1).val ∧ (i 1).val < (8 * (i 0).val + (i 1).val / 16) % 8 * 16 + 16
    omega
  | ⟨2, _⟩ =>
    show win0_1.index _ (2 : Fin 5) * 9 ≤ (i 2).val ∧ (i 2).val < win0_1.index _ (2 : Fin 5) * 9 + 9
    rw [e6]; omega
  | ⟨3, _⟩ =>
    show win0_1.index _ (3 : Fin 5) * 128 ≤ (i 3).val ∧ (i 3).val < win0_1.index _ (3 : Fin 5) * 128 + 128
    rw [e7]; omega
  | ⟨4, _⟩ =>
    show win0_1.index _ (4 : Fin 5) * 64 ≤ (i 4).val ∧ (i 4).val < win0_1.index _ (4 : Fin 5) * 64 + 64
    rw [e8]; omega

/-- THE ARRAY after the pallas_call: `rows9` of the image. -/
theorem final_rows (c : Dev nD) :
    (dats m 0 c).arrAt 1 cfg0.N = Patches.rows9 (fillv (F := F)) (img m c) :=
  (dats m 0 c).arrAt_eq_of_cover 1 _ (fun t _ => flushed_eq m c t) covered

/-! ## The two host operations after the pallas_call, and the run -/

/-- The program's result: the 3 × 3 patch array of the image. -/
theorem tail_value (c : Dev nD) :
    Pipeline.afterTail₀ cfgs (dats m) 0 (V0 m) [hostOps1] c main_v2
      = Patches.patches (fillv (F := F)) (img m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0)
      = Patches.rows9 (fillv (F := F)) (img m c) from
    (Pipeline.withArrays_arr spec0 launch0.win.arr_inj c _ _ 1).trans (final_rows m c)]
  exact Tail.tail_eq _ _ _ _

/-- The result buffer is none of the pallas_call's arrays. -/
theorem result_mem_rest : main_v2 ∈ Pipeline.restRefs sig (cfgs 0).spec :=
  Pipeline.mem_restRefs_of main_v2 rfl (fun w => by fin_cases w <;> decide)

/-- THE RUN, READ: every weakly fair execution of the kernel program terminates with its result at the 3 × 3 patch
    array of its argument, bordered with the converted integer zero, and the argument unchanged. -/
theorem run : θ_run defs (onTc (τ := τ) (main (F := F))) ⟨m, fun _ => 0, ρ⟩ fun r => ∀ c : Dev nD,
      r.2.mem ((c.tc : Thread nD τ).loc main_v2)
        = Patches.patches (fillv (F := F)) (m ((c.tc : Thread nD τ).loc main_arg0))
      ∧ r.2.mem ((c.tc : Thread nD τ).loc main_arg0) = m ((c.tc : Thread nD τ).loc main_arg0) :=
  (θ_run defs _ _).mono (fun r h c => ⟨((h c).2 main_v2 result_mem_rest).trans (tail_value m c),
      ((h c).1 0).trans (((dats m 0 c).arrAt_in 0 rfl _).trans ((A_eq m c 0).trans (V_main_arg0 m c)))⟩)
    (run_main m ρ)

end Cert.KernelIdeal.Arr
-- ==== Proof.RefRead.lean ====
/-
  The reference program's result, read at an index.

  The reference pads the image `x[b, c, r, s]` over [16, 64, 128, 128] by one row and one column of the fill value
  on every side, takes the nine [16, 64, 128, 128] windows of the padded image at the shifts (i, k), 0 ≤ i, k ≤ 2,
  stacks them as the last axis (window 3 i + k at position 3 i + k), splits that axis of 9 into 3 × 3, and moves the
  channel axis behind the rows and columns. Read at an index (b, h, w, c, i, k) of the result, each step names ONE
  index of its operand:

    transpose   (b, h, w, c, i, k)  ↦  (b, c, h, w, i, k)
    reshape     (b, c, h, w, i, k)  ↦  (b, c, h, w, 3 i + k)          the same row-major position
    concatenate (b, c, h, w, n)     ↦  piece n at (b, c, h, w, 0)
    broadcast   (b, c, h, w, 0)     ↦  (b, c, h, w)
    slice (i,k) (b, c, h, w)        ↦  (b, c, h + i, w + k)           of the padded image
    pad         (b, c, r, s)        ↦  x[b, c, r - 1, s - 1] when 1 ≤ r, s ≤ 128, the fill value otherwise.

  So the result at (b, h, w, c, i, k) is the padded image at (b, c, h + i, w + k): the 3 × 3 patch array
  `Cert.Patches.patches` of the specification, with the fill value the integer zero converted to a float.
-/
import proofs.«123604_j15968688406880_2_alg».proof.Proof.Gen.ReferenceIdeal.Read
import proofs.«123604_j15968688406880_2_alg».proof.Proof.Spec
import Idealize.ShloMosaic.Lib.Pipeline.Value
import Idealize.ShloMosaic.Lib.KernelVsHost
import Idealize.ShloMosaic.Lib.ValueIdxRank6

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read

variable {F : FTy → Type} [FloatOps F]

/-- The fill value: the integer zero converted to a float. -/
abbrev fill : F .f32 := FloatOps.sitofp .f32 (0#32 : BitVec 32)

/-! ## The pad -/

/-- The padded image at (b, c, r, s), rows and columns 0 … 129, is the specification's `padded`. -/
theorem pad_apply (x0 : (⟨S16x64x128x128, .f32⟩ : BufTy).Contents (Elt F)) (b : Fin 16) (c : Fin 64) (r s : Fin 130) :
    val_main_v0 (F := F) x0 (ix4 b c r s) = Cert.Patches.padded (fill (F := F)) x0 b c r.val s.val := by
  have hr : r.val < 130 := r.isLt
  have hs : s.val < 130 := s.isLt
  unfold val_main_v0
  by_cases h : (1 ≤ r.val ∧ r.val ≤ 128) ∧ (1 ≤ s.val ∧ s.val ≤ 128)
  · -- inside: the image one row and one column back
    have hk : ∀ a : Fin 4, ((ix4 b c r s : S16x64x130x130.Idx) (a.cast rfl)).val
        = (![0, 0, 1, 1] : Fin 4 → Nat) a
          + ((ix4 b c (⟨r.val - 1, by omega⟩ : Fin 128) (⟨s.val - 1, by omega⟩ : Fin 128) : S16x64x128x128.Idx) a).val
            * ((![0, 0, 0, 0] : Fin 4 → Nat) a + 1) := fun a => match a with
      | ⟨0, _⟩ => by show b.val = 0 + b.val * (0 + 1); omega
      | ⟨1, _⟩ => by show c.val = 0 + c.val * (0 + 1); omega
      | ⟨2, _⟩ => by show r.val = 1 + (r.val - 1) * (0 + 1); omega
      | ⟨3, _⟩ => by show s.val = 1 + (s.val - 1) * (0 + 1); omega
    rw [Cert.Patches.padded_inside (fill (F := F)) x0 b c r.val s.val h.1 h.2
      (ix4 b c (⟨r.val - 1, by omega⟩ : Fin 128) (⟨s.val - 1, by omega⟩ : Fin 128)) rfl rfl
      (by show r.val - 1 + 1 = r.val; omega) (by show s.val - 1 + 1 = s.val; omega)]
    exact pad_apply_of_inside _ _ _ x0 _ pads_S16x64x128x128_S16x64x130x130_000_000_110_110 h_S_ (ix4 b c r s)
      (ix4 b c (⟨r.val - 1, by omega⟩ : Fin 128) (⟨s.val - 1, by omega⟩ : Fin 128)) hk
  · -- on the border: the fill value, because the row or the column is outside 1 … 128
    rw [Cert.Patches.padded_border (fill (F := F)) x0 b c r.val s.val h]
    by_cases h2 : 1 ≤ r.val ∧ r.val ≤ 128
    · have h3 : ¬(1 ≤ s.val ∧ s.val ≤ 128) := fun h3 => h ⟨h2, h3⟩
      exact pad_apply_of_not_inside _ _ _ x0 _ pads_S16x64x128x128_S16x64x130x130_000_000_110_110 h_S_ (ix4 b c r s)
        (3 : Fin 4) (fun hin => by
          have e1 : 1 ≤ s.val := hin.1
          have e2 : (s.val - 1) / (0 + 1) < 128 := hin.2.2
          rw [Nat.div_one] at e2
          exact h3 (by omega))
    · exact pad_apply_of_not_inside _ _ _ x0 _ pads_S16x64x128x128_S16x64x130x130_000_000_110_110 h_S_ (ix4 b c r s)
        (2 : Fin 4) (fun hin => by
          have e1 : 1 ≤ r.val := hin.1
          have e2 : (r.val - 1) / (0 + 1) < 128 := hin.2.2
          rw [Nat.div_one] at e2
          exact h2 (by omega))

/-! ## The layout steps, each read at an index (any values) -/

section Layout
variable {α : Type}

/-- The window at the shift (i, k) of a [16, 64, 130, 130] array reads it at (b, c, h + i, w + k). -/
theorem slice_apply (y : S16x64x130x130.Idx → α) (i k : Nat) (hi : i ≤ 2) (hk : k ≤ 2)
    (hs : S16x64x130x130.Slices ![0, 0, i, k] S16x64x128x128) (b : Fin 16) (c : Fin 64) (h w : Fin 128) :
    extractStridedSlice S16x64x128x128 ![0, 0, i, k] y hs (ix4 b c h w)
      = y (ix4 b c (⟨h.val + i, by have := h.isLt; omega⟩ : Fin 130) (⟨w.val + k, by have := w.isLt; omega⟩ : Fin 130)) :=
  extractStridedSlice_apply ![0, 0, i, k] y hs (ix4 b c h w) _ (fun a => match a with
    | ⟨0, _⟩ => by show b.val = 0 + b.val; omega
    | ⟨1, _⟩ => by show c.val = 0 + c.val; omega
    | ⟨2, _⟩ => by show h.val + i = i + h.val; omega
    | ⟨3, _⟩ => by show w.val + k = k + w.val; omega)

/-- A [16, 64, 128, 128] array given a last axis of one entry reads the array at the leading four coordinates. -/
theorem bcast_apply (y : S16x64x128x128.Idx → α) (b : Fin 16) (c : Fin 64) (h w : Fin 128) (e : Fin 1) :
    broadcastInDim S16x64x128x128x1 ![0, 1, 2, 3] bcast_S16x64x128x128_S16x64x128x128x1_0_1_2_3 y (ix5 b c h w e)
      = y (ix4 b c h w) :=
  broadcastInDim_apply _ bcast_S16x64x128x128_S16x64x128x128x1_0_1_2_3 y (ix5 b c h w e) (ix4 b c h w) (fun a => match a with
    | ⟨0, _⟩ => by show b.val = if (16 : Nat) = 1 then 0 else b.val; rw [if_neg (by decide)]
    | ⟨1, _⟩ => by show c.val = if (64 : Nat) = 1 then 0 else c.val; rw [if_neg (by decide)]
    | ⟨2, _⟩ => by show h.val = if (128 : Nat) = 1 then 0 else h.val; rw [if_neg (by decide)]
    | ⟨3, _⟩ => by show w.val = if (128 : Nat) = 1 then 0 else w.val; rw [if_neg (by decide)])

/-- A concatenation along the last axis into [16, 64, 128, 128, 9] whose piece `n` is a [16, 64, 128, 128, 1] array
    preceded by extents that add up to `n` reads, at last coordinate `n`, that piece at last coordinate 0. -/
theorem concat_apply (xs : List ((s : Shape) × (s.Idx → α)))
    (hc : Shape.Concatenates (xs.map (·.1)) S16x64x128x128x9 4) (n : Nat) (hn9 : n < 9) (hn : n < xs.length)
    (u : S16x64x128x128x1.Idx → α) (hxn : xs[n] = ⟨S16x64x128x128x1, u⟩)
    (hpre : (((xs.take n).map (·.1)).map fun s : Shape =>
      if h : s.rank = S16x64x128x128x9.rank then s.size ((4 : Fin S16x64x128x128x9.rank).cast h.symm) else 0).sum = n)
    (b : Fin 16) (c : Fin 64) (h w : Fin 128) :
    concatenate S16x64x128x128x9 4 xs hc (ix5 b c h w (⟨n, hn9⟩ : Fin 9)) = u (ix5 b c h w (0 : Fin 1)) :=
  concatenate_apply_piece (4 : Fin S16x64x128x128x9.rank) xs hc (ix5 b c h w (⟨n, hn9⟩ : Fin 9)) n hn S16x64x128x128x1 u hxn rfl n hpre
    (ix5 b c h w (0 : Fin 1))
    (fun a ha => match a, ha with
      | ⟨0, _⟩, _ => rfl
      | ⟨1, _⟩, _ => rfl
      | ⟨2, _⟩, _ => rfl
      | ⟨3, _⟩, _ => rfl
      | ⟨4, _⟩, ha => absurd rfl ha)
    (by show n + 0 = n; omega)

/-- Splitting the last axis of 9 into 3 × 3: entry (b, c, h, w, i, k) is entry (b, c, h, w, 3 i + k), the same
    row-major position. -/
theorem reshape_apply (y : S16x64x128x128x9.Idx → α) (b : Fin 16) (c : Fin 64) (h w : Fin 128) (i k : Fin 3) :
    shapeCast S16x64x128x128x3x3 y shapeCasts_S16x64x128x128x9_S16x64x128x128x3x3 (ix6 b c h w i k)
      = y (ix5 b c h w (⟨3 * i.val + k.val, by have := i.isLt; have := k.isLt; omega⟩ : Fin 9)) := by
  refine shapeCast_apply y shapeCasts_S16x64x128x128x9_S16x64x128x128x3x3 (ix6 b c h w i k) _ ?_
  rw [Shape.rowMajor_val_five, Shape.rowMajor_val_six]
  show (((b.val * 64 + c.val) * 128 + h.val) * 128 + w.val) * 9 + (3 * i.val + k.val)
    = ((((b.val * 64 + c.val) * 128 + h.val) * 128 + w.val) * 3 + i.val) * 3 + k.val
  omega

/-- Moving the channel axis behind the rows and columns: entry (b, h, w, c, i, k) is entry (b, c, h, w, i, k). -/
theorem transpose_apply' (y : S16x64x128x128x3x3.Idx → α) (b : Fin 16) (h w : Fin 128) (c : Fin 64) (i k : Fin 3) :
    transpose S16x128x128x64x3x3 [0, 2, 3, 1, 4, 5] y transposes_S16x64x128x128x3x3_S16x128x128x64x3x3_0_2_3_1_4_5
        (ix6 b h w c i k)
      = y (ix6 b c h w i k) :=
  transpose_apply [0, 2, 3, 1, 4, 5] y transposes_S16x64x128x128x3x3_S16x128x128x64x3x3_0_2_3_1_4_5 (ix6 b h w c i k)
    (ix6 b c h w i k) (fun a => match a with
    | ⟨0, _⟩ => rfl
    | ⟨1, _⟩ => rfl
    | ⟨2, _⟩ => rfl
    | ⟨3, _⟩ => rfl
    | ⟨4, _⟩ => rfl
    | ⟨5, _⟩ => rfl)

end Layout

/-! ## The nine windows, stacked -/

/-- Window (i, k) of the padded image, given a last axis of one entry, at (b, c, h, w, 0): the padded image at
    (b, c, h + i, w + k). -/
theorem piece_apply (x0 : (⟨S16x64x128x128, .f32⟩ : BufTy).Contents (Elt F)) (i k : Nat) (hi : i ≤ 2) (hk : k ≤ 2)
    (hs : S16x64x130x130.Slices ![0, 0, i, k] S16x64x128x128) (b : Fin 16) (c : Fin 64) (h w : Fin 128) (e : Fin 1) :
    broadcastInDim S16x64x128x128x1 ![0, 1, 2, 3] bcast_S16x64x128x128_S16x64x128x128x1_0_1_2_3
        (extractStridedSlice S16x64x128x128 ![0, 0, i, k] (val_main_v0 (F := F) x0) hs) (ix5 b c h w e)
      = Cert.Patches.padded (fill (F := F)) x0 b c (h.val + i) (w.val + k) := by
  rw [bcast_apply, slice_apply _ i k hi hk hs]
  exact pad_apply x0 b c _ _

/-- The stack of the nine windows at (b, c, h, w, 3 i + k) is window (i, k) at (b, c, h, w): the padded image at
    (b, c, h + i, w + k). The nine positions 3 i + k are nine pieces of the concatenation, one case each. -/
theorem stack_apply (x0 : (⟨S16x64x128x128, .f32⟩ : BufTy).Contents (Elt F)) (b : Fin 16) (c : Fin 64) (h w : Fin 128)
    (i k : Fin 3) :
    val_main_v19 (F := F) x0 (ix5 b c h w (⟨3 * i.val + k.val, by have := i.isLt; have := k.isLt; omega⟩ : Fin 9))
      = Cert.Patches.padded (fill (F := F)) x0 b c (h.val + i.val) (w.val + k.val) := by
  unfold val_main_v19
  match i, k with
  | ⟨0, _⟩, ⟨0, _⟩ =>
    exact (concat_apply _ _ 0 (by decide) (by show (0 : Nat) < 9; decide) _ rfl rfl b c h w).trans
      (piece_apply x0 0 0 (by decide) (by decide) _ b c h w 0)
  | ⟨0, _⟩, ⟨1, _⟩ =>
    exact (concat_apply _ _ 1 (by decide) (by show (1 : Nat) < 9; decide) _ rfl rfl b c h w).trans
      (piece_apply x0 0 1 (by decide) (by decide) _ b c h w 0)
  | ⟨0, _⟩, ⟨2, _⟩ =>
    exact (concat_apply _ _ 2 (by decide) (by show (2 : Nat) < 9; decide) _ rfl rfl b c h w).trans
      (piece_apply x0 0 2 (by decide) (by decide) _ b c h w 0)
  | ⟨1, _⟩, ⟨0, _⟩ =>
    exact (concat_apply _ _ 3 (by decide) (by show (3 : Nat) < 9; decide) _ rfl rfl b c h w).trans
      (piece_apply x0 1 0 (by decide) (by decide) _ b c h w 0)
  | ⟨1, _⟩, ⟨1, _⟩ =>
    exact (concat_apply _ _ 4 (by decide) (by show (4 : Nat) < 9; decide) _ rfl rfl b c h w).trans
      (piece_apply x0 1 1 (by decide) (by decide) _ b c h w 0)
  | ⟨1, _⟩, ⟨2, _⟩ =>
    exact (concat_apply _ _ 5 (by decide) (by show (5 : Nat) < 9; decide) _ rfl rfl b c h w).trans
      (piece_apply x0 1 2 (by decide) (by decide) _ b c h w 0)
  | ⟨2, _⟩, ⟨0, _⟩ =>
    exact (concat_apply _ _ 6 (by decide) (by show (6 : Nat) < 9; decide) _ rfl rfl b c h w).trans
      (piece_apply x0 2 0 (by decide) (by decide) _ b c h w 0)
  | ⟨2, _⟩, ⟨1, _⟩ =>
    exact (concat_apply _ _ 7 (by decide) (by show (7 : Nat) < 9; decide) _ rfl rfl b c h w).trans
      (piece_apply x0 2 1 (by decide) (by decide) _ b c h w 0)
  | ⟨2, _⟩, ⟨2, _⟩ =>
    exact (concat_apply _ _ 8 (by decide) (by show (8 : Nat) < 9; decide) _ rfl rfl b c h w).trans
      (piece_apply x0 2 2 (by decide) (by decide) _ b c h w 0)

/-! ## The result -/

/-- The reference's result, as a function of the image, is the 3 × 3 patch array of the image padded with the fill
    value. -/
theorem val_eq (x0 : (⟨S16x64x128x128, .f32⟩ : BufTy).Contents (Elt F)) :
    val_main_v21 (F := F) x0 = Cert.Patches.patches (fill (F := F)) x0 := by
  funext j
  obtain ⟨b, h, w, c, i, k, rfl⟩ : ∃ (b : Fin 16) (h w : Fin 128) (c : Fin 64) (i k : Fin 3), j = ix6 b h w c i k :=
    ⟨j 0, j 1, j 2, j 3, j 4, j 5, eq_ix6 j⟩
  show val_main_v21 (F := F) x0 (ix6 b h w c i k)
    = Cert.Patches.padded (fill (F := F)) x0 b c (h.val + i.val) (w.val + k.val)
  unfold val_main_v21 val_main_v20
  rw [transpose_apply', reshape_apply]
  exact stack_apply x0 b c h w i k

/-- The reference's result on device `c` from the memory `m`: the 3 × 3 patch array of its argument padded with the
    fill value. -/
theorem result_eq (m : (ℓ : Loc nD τ sig) → Buf (Elt F) ℓ) (c : Dev nD) :
    Cert.ReferenceIdeal.Value.res_out0 (F := F) m c
      = Cert.Patches.patches (FloatOps.sitofp .f32 (0#32 : BitVec 32)) (m ((c.tc : Thread nD τ).loc main_arg0)) :=
  (val_main_v21_eq m c).trans (val_eq _)

end Cert.ReferenceIdeal.RefValue

end
-- ==== Proof.lean ====
/-
  The certificate of the 3 × 3 sliding-window patch kernel against its reference.

  Both programs compute, from an image x over [16, 64, 128, 128], the array
      patches[b, h, w, c, i, j] = padded[b, c, h + i, w + j]        over [16, 128, 128, 64, 3, 3],
  where padded is x with a border of zeros one entry wide (Proof/Spec.lean). Nothing is added or multiplied: every entry
  of the result is one entry of the image or the border value, so the two results agree on every extended real,
  finite or not, and the precondition is never opened.

  The kernel (Proof/ScratchFill, ShiftStores, PointValues, KernelArray): per batch element it builds the bordered,
  channel-last image once in a scratch that the eight row tiles of that element share, each tile copies its nine
  shifted windows of the scratch into one block, and two host operations re-lay the blocks' array as `patches`. Its
  border value is the integer zero converted to a float by the scalar unit.
  The reference (Proof/RefRead): pad, nine slices, stack, reshape, transpose; its border value is the integer zero
  converted to a float by the vector unit. At the ideal instance both conversions are the real number 0.

  The three frames are the generated ones (the reference's is its generated run with the result dropped), and the
  kernel's idealization rewrote nothing, so `preserves` has no conjunct.
-/
import proofs.«123604_j15968688406880_2_alg».proof.Defs
import proofs.«123604_j15968688406880_2_alg».proof.Proof.Gen.Kernel
import proofs.«123604_j15968688406880_2_alg».proof.Proof.Gen.Kernel.Frame
import proofs.«123604_j15968688406880_2_alg».proof.Proof.Gen.KernelIdeal
import proofs.«123604_j15968688406880_2_alg».proof.Proof.Gen.KernelIdeal.Frame
import proofs.«123604_j15968688406880_2_alg».proof.Proof.Gen.ReferenceIdeal
import proofs.«123604_j15968688406880_2_alg».proof.Proof.Gen.ReferenceIdeal.Run
import proofs.«123604_j15968688406880_2_alg».proof.Proof.Gen.Pre_finite_inputs
import proofs.«123604_j15968688406880_2_alg».proof.Proof.KernelArray
import proofs.«123604_j15968688406880_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two border values are one extended real: the integer zero converted to a float, on the scalar unit and on the
    vector unit, is the real number 0 at the ideal instance. -/
theorem border_eq : (Scalar.sitofp .f32 (0#32 : BitVec 32) : Ideal .f32) = FloatOps.sitofp .f32 (0#32 : BitVec 32) := rfl

/-- From memories that agree on the image both programs end with the 3 × 3 patch array of the image bordered with the
    real number 0: the kernel by its run read back (KernelArray), the reference by its generated run and its result
    read at an index (RefRead). -/
theorem algebraic : Cert.algebraic_KernelIdeal_ReferenceIdeal := by
  intro m ρ m' ρ' _ hagree
  refine ⟨fun c => Cert.Patches.patches (Scalar.sitofp .f32 (0#32 : BitVec 32) : Ideal .f32)
    (m ((c.tc : Thread Cert.KernelIdeal.nD Cert.KernelIdeal.τ).loc Cert.KernelIdeal.main_arg0)),
    Cert.KernelIdeal.Arr.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq (F := Ideal) m' c).trans ?_
  rw [hagree c, border_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
